-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S16384x1024 .f32) (main_arg1 : FVec F S4096x1024 .f32) (main_arg2 : IVec S16384x4096 32) (main_arg3 : FVec F S1024x1024 .f32) (main_arg4 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S256x1024 : Shape := ⟨2, ![256, 1024]⟩
abbrev S256x4096 : Shape := ⟨2, ![256, 4096]⟩
abbrev S1024x4096 : Shape := ⟨2, ![1024, 4096]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x4096, .i32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S4096x1024, .bf16⟩
  | .hbm, ⟨8, _⟩ => ⟨S16384x4096, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S1024x1024, .bf16⟩
  | .local _ .vmem, ⟨8, _⟩ => ⟨S4096x1024, .bf16⟩
  | .local _ .vmem, ⟨9, _⟩ => ⟨S256x4096, .i32⟩
  | .local _ .vmem, ⟨10, _⟩ => ⟨S256x4096, .i32⟩
  | .local _ .vmem, ⟨11, _⟩ => ⟨S256x4096, .f32⟩
  | .local _ .vmem, ⟨12, _⟩ => ⟨S256x4096, .f32⟩
  | .local _ .vmem, ⟨13, _⟩ => ⟨S256x1024, .f32⟩
  | .local _ .vmem, ⟨14, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  packedbf16_S1024x1024_S1024x1024_0_0 : (Rect.unit (s := S1024x1024) ![0, 0] S1024x1024.size inb_S1024x1024_S1024x1024_0_0).PackedRows (EltTy.packing .bf16)
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  dot_S1024x1024_S1024x1024_S1024x1024_1_0_0_1_n_n_wf : DotDims.WF S1024x1024 S1024x1024 S1024x1024 [1] [0] [0] [1] [] []
  dot_S256x1024_S1024x1024_S256x1024_1_0_0_1_n_n_wf : DotDims.WF S256x1024 S1024x1024 S256x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S16384x1024.size a
  hwx1_0 : ∀ i : grid1.Coords, EltTy.bits .f32 = 32 ∨ (Rect.block (s := S16384x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S16384x4096.size a
  hwx1_3 : ∀ i : grid1.Coords, EltTy.bits .i32 = 32 ∨ (Rect.block (s := S16384x4096) S256x4096.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4096.size a ≤ S16384x4096.size a
  hwx1_4 : ∀ i : grid1.Coords, EltTy.bits .f32 = 32 ∨ (Rect.block (s := S16384x4096) S256x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S16384x1024.size a
  hwx1_5 : ∀ i : grid1.Coords, EltTy.bits .f32 = 32 ∨ (Rect.block (s := S16384x1024) S256x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_0) S256x4096.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_1) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S1024x4096 : Shape := ⟨2, ![1024, 4096]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x4096, .i32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S16384x1024, .f32⟩
  | .hbm, ⟨9, _⟩ => ⟨S1024x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .i32⟩
  | .hbm, ⟨15, _⟩ => ⟨S16384x4096, .i32⟩
  | .hbm, ⟨16, _⟩ => ⟨S16384x4096, .i1⟩
  | .hbm, ⟨17, _⟩ => ⟨S_, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .i1⟩
  | .hbm, ⟨41, _⟩ => ⟨S_, .f32⟩
  | .hbm, ⟨42, _⟩ => ⟨S16384x1024, .f32⟩
  | .hbm, ⟨43, _⟩ => ⟨S16384x1024, .i1⟩
  | .hbm, ⟨44, _⟩ => ⟨S_, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_cst_0 : Ref sig .tc := ⟨.hbm, 41, rfl⟩
abbrev main_call1_v2 : Ref sig .tc := ⟨.hbm, 42, rfl⟩
abbrev main_call1_v3 : Ref sig .tc := ⟨.hbm, 43, rfl⟩
abbrev main_call1_cst_1 : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_v4 : Ref sig .tc := ⟨.hbm, 47, rfl⟩
abbrev main_call1_v5 : Ref sig .tc := ⟨.hbm, 48, rfl⟩
abbrev main_call1_cst_2 : Ref sig .tc := ⟨.hbm, 49, rfl⟩
abbrev main_call1_v6 : Ref sig .tc := ⟨.hbm, 50, rfl⟩
abbrev main_call1_v7 : Ref sig .tc := ⟨.hbm, 51, rfl⟩
abbrev main_v25 : Ref sig .tc := ⟨.hbm, 52, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x1024 : S_.BroadcastsInDim S16384x1024 (![] : Fin 0 → Fin S16384x1024.rank)
  dot_S4096x1024_S1024x1024_S4096x1024_1_0_0_1_n_n_wf : DotDims.WF S4096x1024 S1024x1024 S4096x1024 [1] [0] [0] [1] [] []
  dot_S16384x1024_S1024x1024_S16384x1024_1_0_0_1_n_n_wf : DotDims.WF S16384x1024 S1024x1024 S16384x1024 [1] [0] [0] [1] [] []
  dot_S16384x1024_S1024x4096_S16384x4096_1_0_0_1_n_n_wf : DotDims.WF S16384x1024 S1024x4096 S16384x4096 [1] [0] [0] [1] [] []
  dot_S16384x4096_S4096x1024_S16384x1024_1_0_0_1_n_n_wf : DotDims.WF S16384x4096 S4096x1024 S16384x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf
def dot_S16384x4096_S4096x1024_S16384x1024_1_0_0_1_n_n : DotDims S16384x4096 S4096x1024 S16384x1024 where
  lhsContracting := [1]
  rhsContracting := [0]
  lhsNonContracting := [0]
  rhsNonContracting := [1]
  lhsBatch := []
  rhsBatch := []
  wf := dot_S16384x4096_S4096x1024_S16384x1024_1_0_0_1_n_n_wf

class Facts : Prop extends Facts₀ where

variable [Facts]
-- ==== Proof.Spec.lean ====
/-
  The node-attention layer on the extended reals, index by index: what both programs compute.

  For node features `x` (16384 × 1024), hyperedge features `e` (4096 × 1024), an integer incidence matrix `H`
  (16384 × 4096) and two square weight matrices `We`, `Wn`:
    edge features   he(j, d) = Σ_k e(j, k) · We(d, k)
    node features   hn(p, d) = Σ_k x(p, k) · Wn(d, k)
    scores          s(p, j)  = (Σ_d hn(p, d) · he(j, d)) · 1/32, replaced by −10⁹ where H(p, j) ≤ 0
    attention       B(p, j)  = exp(s(p, j) − max_j s(p, j)) / Σ_j exp(s(p, j) − max_j s(p, j)), times 1 where
                               H(p, j) > 0 and 0 elsewhere
    output          out(p, d) = elu(Σ_j B(p, j) · he(j, d)),  elu v = v if v > 0, else exp(min v 0) − 1.
  Row `p` of `B` and of `out` depends on row `p` of `x` and of `H` only (and on all of `he`, `Wn`), so everything is
  stated for ONE row: a row of `x` as a function `Fin 1024 → EReal`, a row of `H` as `Fin 4096 → BitVec 32`. A tile of
  256 rows and the whole array of 16384 rows are then the same row function at their own rows.

  Also here: the three small laws that join two spellings of the same value —
    * the maximum of −∞ (any `b`) with a fold of `max` started from `b` is that fold;
    * `elu` written with `exp(·) − 1` of the input clipped by a choice (`0` where `v > 0`, else `v`), scaled by one,
      is `elu` written with `min v 0`;
    * a one-bit flag widened to 32 bits and read as a signed integer is the flag read as a natural number.
-/
import Idealize.ShloMosaic.PureOps.Ideal
import Idealize.ShloMosaic.PureOps.Ideal.Laws
import Idealize.ShloMosaic.Lib.ValueIdx
import Mathlib.Data.Finset.Fold

noncomputable section

open scoped BigOperators

namespace Cert.NodeAttention

open Idealize.ShloMosaic Idealize.ShloMosaic.ValueIdx

/-- A matrix of extended reals with `a` rows and `b` columns. -/
abbrev Mat (a b : ℕ) : Type := (⟨2, ![a, b]⟩ : Shape).Idx → EReal

/-- The score scale 1/32, as the f32 word both programs hold. -/
abbrev scaleC : EReal := Ideal.ofBits .f32 0x3D000000#32
/-- The fill −10⁹ of an unlinked pair. -/
abbrev fillC : EReal := Ideal.ofBits .f32 0xCE6E6B28#32
/-- The word of −∞ a maximum starts from. -/
abbrev negInfC : EReal := Ideal.ofBits .f32 0xFF800000#32
/-- The word of zero. -/
abbrev zeroC : EReal := Ideal.ofBits .f32 0x00000000#32
/-- The word of one. -/
abbrev oneC : EReal := Ideal.ofBits .f32 0x3F800000#32

/-- Edge features: row `j` of `e` against row `d` of `We`. -/
def edgeFeat (e : Mat 4096 1024) (We : Mat 1024 1024) : Mat 4096 1024 :=
  fun i => ∑ k : Fin 1024, e (ix2 (i 0) k) * We (ix2 (i 1) k)

section Row

variable (xr : Fin 1024 → EReal) (hr : Fin 4096 → BitVec 32) (Wn : Mat 1024 1024) (he : Mat 4096 1024)

/-- The node's features: its row against row `d` of `Wn`. -/
def nodeFeat (d : Fin 1024) : EReal := ∑ k : Fin 1024, xr k * Wn (ix2 d k)

/-- The scaled score of the node against edge `j`. -/
def score (j : Fin 4096) : EReal := (∑ d : Fin 1024, nodeFeat xr Wn d * he (ix2 j d)) * scaleC

/-- Whether the node lies on edge `j`: the incidence entry is positive (as a signed integer). -/
def linked (j : Fin 4096) : BitVec 1 := IntOp.cmpi .sgt (hr j) 0#32

/-- The score where linked, the fill elsewhere. -/
def masked (j : Fin 4096) : EReal := Scalar.select (linked hr j) (score xr Wn he j) fillC

/-- The row's maximum, a fold of `max` from −∞. -/
def rowMax : EReal := (Finset.univ : Finset (Fin 4096)).fold max negInfC (masked xr hr Wn he)

/-- The unnormalised weight of edge `j`. -/
def weight (j : Fin 4096) : EReal := Ideal.exp (masked xr hr Wn he j - rowMax xr hr Wn he)

/-- The attention of the node to edge `j`: the normalised weight, kept where linked. -/
def prob (j : Fin 4096) : EReal :=
  Ideal.div (weight xr hr Wn he j) (∑ j' : Fin 4096, weight xr hr Wn he j') * (((linked hr j).toNat : ℝ) : EReal)

/-- The attention-weighted sum of the edge features, coordinate `d`. -/
def agg (d : Fin 1024) : EReal := ∑ j : Fin 4096, prob xr hr Wn he j * he (ix2 j d)

end Row

/-- The exponential linear unit, with the exponential taken of the input clipped at zero. -/
def elu (v : EReal) : EReal := Scalar.select (Ideal.cmp .ogt v zeroC) v (Ideal.exp (min v zeroC) - oneC)

/-- The attention matrix of the whole layer. -/
def attnB (x : Mat 16384 1024) (e : Mat 4096 1024) (H : (⟨2, ![16384, 4096]⟩ : Shape).Idx → BitVec 32)
    (We Wn : Mat 1024 1024) : Mat 16384 4096 :=
  fun i => prob (fun k => x (ix2 (i 0) k)) (fun j => H (ix2 (i 0) j)) Wn (edgeFeat e We) (i 1)

/-- The output of the whole layer. -/
def attnOut (x : Mat 16384 1024) (e : Mat 4096 1024) (H : (⟨2, ![16384, 4096]⟩ : Shape).Idx → BitVec 32)
    (We Wn : Mat 1024 1024) : Mat 16384 1024 :=
  fun i => elu (agg (fun k => x (ix2 (i 0) k)) (fun j => H (ix2 (i 0) j)) Wn (edgeFeat e We) (i 1))

/-! ## Three small laws -/

/-- A fold of `max` started from `b` is at least `b`, so taking the maximum with `b` once more changes nothing. -/
theorem max_fold_max_self {ι : Type} (s : Finset ι) (b : EReal) (f : ι → EReal) :
    max b (s.fold max b f) = s.fold max b f :=
  max_eq_right ((Finset.le_fold_max b).mpr (Or.inl le_rfl))

/-- The word `0x3F800000` is one. -/
theorem oneC_eq : oneC = 1 := by
  simp [Ideal.ofBits, Ideal.ieee, -EReal.coe_mul]; norm_num

/-- `elu` spelt with a choice in place of the minimum (`0` where `v > 0`, else `v`), `exp(·) − 1` and a factor one. -/
theorem elu_choice (v : EReal) :
    Scalar.select (Ideal.cmp .ogt v zeroC) v
        (oneC * (Ideal.exp (Scalar.select (Ideal.cmp .ogt v zeroC) zeroC v) - 1))
      = elu v := by
  unfold elu
  by_cases h : Ideal.cmp .ogt v zeroC = 1#1
  · rw [h, select_one, select_one]
  · have h0 := eq_zero_of_ne_one h
    have hle : v ≤ zeroC := by
      by_contra hc
      have hlt : zeroC < v := not_le.mp hc
      apply h
      show BitVec.ofBool (decide (zeroC < v)) = 1#1
      rw [decide_eq_true hlt]; rfl
    rw [h0, select_zero, select_zero, select_zero, min_eq_left hle, oneC_eq, one_mul]

/-- A one-bit flag widened to 32 bits, read signed, is the flag read as a natural number. -/
theorem flag_signed (b : BitVec 1) : (((b.setWidth 32).toInt : ℝ) : EReal) = ((b.toNat : ℝ) : EReal) := by
  have : (b.setWidth 32).toInt = (b.toNat : ℤ) := by revert b; decide
  rw [this]; norm_cast

end Cert.NodeAttention

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.KernelBody.lean ====
/-
  The values the two kernel bodies store, read at an index, on the extended reals.

  The first body multiplies a tile of 1024 rows of the edge inputs against the transposed weight matrix: entry
  `(p, q)` of what it stores is the sum over `k` of the tile's `(p, k)` times the weights' `(q, k)`.
  The second body works on a tile of 256 nodes. Row `p` of what it stores in the attention window is the
  specification's `prob` of row `p` of the tile's node inputs and incidence entries (against the whole weight matrix
  and the whole edge-feature array it loads), and row `p` of what it stores in the output window is `elu` of the
  specification's `agg` of the same rows: node features by a row-by-column product, scores by a second one against
  the transposed edge features, the scale, the fill where the incidence entry is not positive, a softmax along the
  row (the lane maximum and lane sum kept as columns and broadcast back), the mask as a 0-or-1 factor, a third
  product against the edge features, and the exponential linear unit pointwise. A change of float format is the
  identity on the extended reals, and a cast to the same shape changes nothing.
-/
import proofs.«146018_j40613210751278_2_alg».proof.Proof.Gen.KernelIdeal.Skeleton
import proofs.«146018_j40613210751278_2_alg».proof.Proof.Spec
import proofs.«146018_j40613210751278_2_alg».proof.Proof.LibRowSoftmax
import proofs.«146018_j40613210751278_2_alg».proof.Proof.LibRowColDot
import Idealize.ShloMosaic.Lib.ValueLayout
import Idealize.ShloMosaic.Lib.Pipeline.Value

noncomputable section

open scoped BigOperators

namespace Cert.KernelIdeal.Body

open Idealize.ShloMosaic Idealize.ShloMosaic.ValueIdx
open Cert.KernelIdeal Cert.KernelIdeal.Gen Cert.NodeAttention

/-! ## The edge-feature body -/

/-- Entry `(p, q)` of the stored tile: row `p` of the loaded inputs against row `q` of the loaded weights. -/
theorem edge_tile (x0 : Vec Ideal S1024x1024 .f32) (x1 : Vec Ideal S1024x1024 .bf16) (p q : Fin 1024) :
    k0_pay1 (F := Ideal) x0 x1 (ix2 p q) = ∑ k : Fin 1024, x0 (ix2 p k) * x1 (ix2 q k) := by
  unfold k0_pay1
  refine (Cert.RowColDot.matmul_rowcol dot_S1024x1024_S1024x1024_S1024x1024_1_0_0_1_n_n rfl rfl rfl rfl
    (fun _ _ => rfl) (fun _ _ => rfl) none _ _ (ix2 p q)).trans ?_
  refine Finset.sum_congr rfl fun k _ => ?_
  show x0 (ix2 p k) * transpose S1024x1024 [1, 0] (shapeCast S1024x1024 x1 shapeCasts_S1024x1024_S1024x1024)
    transposes_S1024x1024_p1_0_S1024x1024 (ix2 k q) = _
  rw [transpose_ix2_apply, shapeCast_self]

/-! ## The attention body -/

section Attn

variable (x0 : Vec Ideal S256x1024 .f32) (x1 : Vec Ideal S1024x1024 .bf16) (x2 : Vec Ideal S4096x1024 .bf16)
  (x3 : Vec Ideal S256x4096 .i32)

/-- The tile's node features, as the body's term. -/
def nodeTile : FVec Ideal S256x1024 .f32 :=
  matmul dot_S256x1024_S1024x1024_S256x1024_1_0_0_1_n_n none (truncf .bf16 x0 bitsLt_bf16_f32)
    (transpose S1024x1024 [1, 0] (shapeCast S1024x1024 x1 shapeCasts_S1024x1024_S1024x1024 : FVec Ideal S1024x1024 .bf16)
      transposes_S1024x1024_p1_0_S1024x1024 : FVec Ideal S1024x1024 .bf16)
    (constant S256x1024 .f32 0x00000000#32)

/-- Entry `(p, d)` of the node features: row `p` of the tile against row `d` of the weights. -/
theorem nodeTile_apply (p : Fin 256) (d : Fin 1024) :
    nodeTile x0 x1 (ix2 p d) = nodeFeat (fun k => x0 (ix2 p k)) x1 d := by
  unfold nodeTile nodeFeat
  refine (Cert.RowColDot.matmul_rowcol dot_S256x1024_S1024x1024_S256x1024_1_0_0_1_n_n rfl rfl rfl rfl
    (fun _ _ => rfl) (fun _ _ => rfl) none _ _ (ix2 p d)).trans ?_
  refine Finset.sum_congr rfl fun k _ => ?_
  show x0 (ix2 p k) * transpose S1024x1024 [1, 0] (shapeCast S1024x1024 x1 shapeCasts_S1024x1024_S1024x1024)
    transposes_S1024x1024_p1_0_S1024x1024 (ix2 k d) = _
  rw [transpose_ix2_apply, shapeCast_self]

/-- The tile's scaled scores with the fill where the node is not on the edge, as the body's term. -/
def maskedTile : FVec Ideal S256x4096 .f32 :=
  select (cmpi .sgt x3 (broadcast S256x4096 (0#32 : BitVec 32)))
    (mulf (matmul dot_S256x1024_S1024x4096_S256x4096_1_0_0_1_n_n none (truncf .bf16 (nodeTile x0 x1) bitsLt_bf16_f32)
        (transpose S1024x4096 [1, 0] (k1_pay2 x2) transposes_S4096x1024_p1_0_S1024x4096 : FVec Ideal S1024x4096 .bf16)
        (constant S256x4096 .f32 0x00000000#32))
      (broadcast S256x4096 (Scalar.ofBits (F := Ideal) .f32 0x3D000000#32)))
    (broadcast S256x4096 (Scalar.ofBits (F := Ideal) .f32 0xCE6E6B28#32))

/-- Entry `(p, j)` of it: the specification's masked score of row `p` against edge `j`. -/
theorem maskedTile_apply (p : Fin 256) (j : Fin 4096) :
    maskedTile x0 x1 x2 x3 (ix2 p j) = masked (fun k => x0 (ix2 p k)) (fun j' => x3 (ix2 p j')) x1 x2 j := by
  unfold masked score linked
  refine congrArg (fun s => Scalar.select (IntOp.cmpi .sgt (x3 (ix2 p j)) 0#32) (s * scaleC) fillC) ?_
  refine (Cert.RowColDot.matmul_rowcol dot_S256x1024_S1024x4096_S256x4096_1_0_0_1_n_n rfl rfl rfl rfl
    (fun _ _ => rfl) (fun _ _ => rfl) none _ _ (ix2 p j)).trans ?_
  refine Finset.sum_congr rfl fun d _ => ?_
  show nodeTile x0 x1 (ix2 p d) * transpose S1024x4096 [1, 0] (k1_pay2 x2) transposes_S4096x1024_p1_0_S1024x4096 (ix2 d j) = _
  rw [nodeTile_apply, transpose_ix2_apply]
  unfold k1_pay2
  rw [shapeCast_self]

/-- The stored attention tile is the row softmax of the masked scores times the mask as a number. -/
theorem prob_shape : k1_pay3 (F := Ideal) x0 x1 x2 x3
    = mulf (Cert.RowSoftmax.normRows
        (Cert.RowSoftmax.expRows (maskedTile x0 x1 x2 x3) reduces_S256x4096_S256 (.inl rfl) rfl
          shapeCasts_S256_S256x1 broadcasts_S256x1_S256x4096)
        reduces_S256x4096_S256 (.inl rfl) rfl shapeCasts_S256_S256x1 broadcasts_S256x1_S256x4096)
      (sitofp .f32 (extui 32 (cmpi .sgt x3 (broadcast S256x4096 (0#32 : BitVec 32))) natLt_1_32)) := by
  unfold k1_pay3 Cert.RowSoftmax.normRows Cert.RowSoftmax.expRows maskedTile nodeTile
  rfl

/-- Entry `(p, j)` of the stored attention tile: the specification's `prob` of row `p`. -/
theorem prob_tile (p : Fin 256) (j : Fin 4096) :
    k1_pay3 (F := Ideal) x0 x1 x2 x3 (ix2 p j)
      = prob (fun k => x0 (ix2 p k)) (fun j' => x3 (ix2 p j')) x1 x2 j := by
  have hw : ∀ j' : Fin 4096,
      Cert.RowSoftmax.expRows (maskedTile x0 x1 x2 x3) reduces_S256x4096_S256 (.inl rfl) rfl
          shapeCasts_S256_S256x1 broadcasts_S256x1_S256x4096 (ix2 p j')
        = weight (fun k => x0 (ix2 p k)) (fun j'' => x3 (ix2 p j'')) x1 x2 j' := fun j' =>
    (Cert.RowSoftmax.expRows_apply (maskedTile x0 x1 x2 x3) reduces_S256x4096_S256 (.inl rfl) rfl
      shapeCasts_S256_S256x1 broadcasts_S256x1_S256x4096 p j').trans (by
        unfold weight rowMax
        simp only [maskedTile_apply])
  have hn := Cert.RowSoftmax.normRows_apply
    (Cert.RowSoftmax.expRows (maskedTile x0 x1 x2 x3) reduces_S256x4096_S256 (.inl rfl) rfl
      shapeCasts_S256_S256x1 broadcasts_S256x1_S256x4096)
    reduces_S256x4096_S256 (.inl rfl) rfl shapeCasts_S256_S256x1 broadcasts_S256x1_S256x4096 p j
  rw [prob_shape]
  exact congrArg₂ (· * ·)
    (hn.trans (congrArg₂ Ideal.div (hw j) (Finset.sum_congr rfl fun j' _ => hw j')))
    (flag_signed (IntOp.cmpi .sgt (x3 (ix2 p j)) 0#32))

/-- Entry `(p, d)` of the attention-weighted edge features: the specification's `agg` of row `p`. -/
theorem agg_tile (p : Fin 256) (d : Fin 1024) :
    k1_pay4 (F := Ideal) x0 x1 x2 x3 (ix2 p d)
      = agg (fun k => x0 (ix2 p k)) (fun j' => x3 (ix2 p j')) x1 x2 d := by
  unfold k1_pay4 agg
  refine (Cert.RowColDot.matmul_rowcol dot_S256x4096_S4096x1024_S256x1024_1_0_0_1_n_n rfl rfl rfl rfl
    (fun _ _ => rfl) (fun _ _ => rfl) none _ _ (ix2 p d)).trans ?_
  refine Finset.sum_congr rfl fun j _ => ?_
  show k1_pay3 (F := Ideal) x0 x1 x2 x3 (ix2 p j) * k1_pay2 x2 (ix2 j d) = _
  rw [prob_tile]
  unfold k1_pay2
  rw [shapeCast_self]

/-- Entry `(p, d)` of the stored output tile: `elu` of that sum. -/
theorem out_tile (p : Fin 256) (d : Fin 1024) :
    k1_pay1 (F := Ideal) (k1_pay4 x0 x1 x2 x3) (k1_pay5 x0 x1 x2 x3) (k1_pay6 x0 x1 x2 x3) (ix2 p d)
      = elu (agg (fun k => x0 (ix2 p k)) (fun j' => x3 (ix2 p j')) x1 x2 d) := by
  unfold k1_pay1 k1_pay5 k1_pay6 elu
  show Scalar.select (Ideal.cmp .ogt (k1_pay4 (F := Ideal) x0 x1 x2 x3 (ix2 p d)) zeroC)
      (k1_pay4 (F := Ideal) x0 x1 x2 x3 (ix2 p d))
      (Ideal.exp (min (k1_pay4 (F := Ideal) x0 x1 x2 x3 (ix2 p d)) zeroC) - oneC) = _
  rw [agg_tile]

end Attn

end Cert.KernelIdeal.Body

end
-- ==== Proof.EdgeArray.lean ====
/-
  The edge-feature array after the first kernel: every tile written back is the tile of ONE whole-array function, and
  the tiles cover the array, so the array ends holding that function.

  The first kernel runs on four grid points. At point `t` it loads rows `1024·t … 1024·t + 1023` of the edge inputs
  and the whole (transposed-on-load) weight matrix, and writes back rows `1024·t … 1024·t + 1023` of the result.
  Entry `(p, q)` of the tile it writes is row `p` of the loaded inputs against row `q` of the weights, which is
  entry `(1024·t + p, q)` of `edgeFeat` of the two arrays as the kernel finds them. Row `r` of the array lies in
  the tile of point `r / 1024`.
-/
import proofs.«146018_j40613210751278_2_alg».proof.Proof.Gen.KernelIdeal.Frame
import proofs.«146018_j40613210751278_2_alg».proof.Proof.KernelBody
import Idealize.ShloMosaic.Lib.Pipeline.Value

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.NodeAttention
open Idealize.ShloMosaic.Pipeline (Dat)

variable (V : (c : Dev nD) → (b : Ref sig .tc) → Buf (Elt Ideal) ((c : Thread nD τ).loc b))

theorem offs_zero : (![0, 0] : Fin 2 → Nat) = fun _ => 0 := funext fun a => by fin_cases a <;> rfl

/-! ## The edge features -/

/-- Where the three windows' tiles sit at point `t`: the inputs' and the result's at row block `t`, the weights whole. -/
theorem edge_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One tile: if row `y 0` of the loaded inputs is row `r` of an array `A` and the loaded weights are `W`, the stored
    entry `y` is entry `(r, y 1)` of `edgeFeat A W`. -/
theorem edge_point (x0 : Vec Ideal S1024x1024 .f32) (x1 : Vec Ideal S1024x1024 .bf16)
    (A : Mat 4096 1024) (W : Mat 1024 1024) (y : S1024x1024.Idx) (r : Fin 4096)
    (h0 : ∀ k : Fin 1024, x0 (ix2 (y 0) k) = A (ix2 r k))
    (h1 : ∀ k : Fin 1024, x1 (ix2 (y 1) k) = W (ix2 (y 1) k)) :
    k0_pay1 (F := Ideal) x0 x1 y = edgeFeat A W (ix2 r (y 1)) := by
  refine (congrArg (k0_pay1 (F := Ideal) x0 x1) (eq_ix2 y)).trans
    ((Body.edge_tile x0 x1 (y 0) (y 1)).trans ?_)
  show _ = ∑ k : Fin 1024, A (ix2 r k) * W (ix2 (y 1) k)
  exact Finset.sum_congr rfl fun k _ => by rw [h0 k, h1 k]

/-- What point `t` writes back is tile `t` of `edgeFeat` of the edge inputs and the weights as the kernel finds them. -/
theorem edge_flushed (c : Dev nD) (t : Fin cfg0.N) :
    (dat0 (F := Ideal) V c).flushed 2 t
      = ((cfg0.win 2).blk t).view.read (Elt Ideal) (edgeFeat (V c main_arg1) (V c main_v0)) := by
  show (cfg0.win 2).cut (grid0.coords t) ((dat0 (F := Ideal) V c).after 2 t) = _
  rw [after0_2]
  unfold out0_2
  rw [View.canon_unit_zero offs_zero]
  simp only [View.ld_unit_zero (S := S1024x1024) offs_zero]
  obtain ⟨e00, e01, e10, e11, e20, e21⟩ := edge_index t
  have ht : t.val < 4 := lt_of_lt_of_eq t.isLt N_0
  funext y
  have hy0 : (y 0).val < 1024 := (y 0).isLt
  have hy1 : (y 1).val < 1024 := (y 1).isLt
  show k0_pay1 (F := Ideal) (iblk0 V c 0 t) (iblk0 V c 1 t) y
    = edgeFeat (V c main_arg1) (V c main_v0) (((cfg0.win 2).blk t).view.emb y)
  have hemb : ((cfg0.win 2).blk t).view.emb y
      = ix2 (⟨t.val * 1024 + (y 0).val, by omega⟩ : Fin 4096) (y 1) := by
    funext a; apply Fin.ext
    match a with
    | ⟨0, _⟩ => show win0_2.index t (0 : Fin 2) * 1024 + 1 * (y 0).val = t.val * 1024 + (y 0).val; omega
    | ⟨1, _⟩ => show win0_2.index t (1 : Fin 2) * 1024 + 1 * (y 1).val = (y 1).val; omega
  rw [hemb]
  refine edge_point (iblk0 V c 0 t) (iblk0 V c 1 t) (V c main_arg1) (V c main_v0) y
    (⟨t.val * 1024 + (y 0).val, by omega⟩ : Fin 4096) (fun k => ?_) (fun k => ?_)
  · show V c main_arg1 (((cfg0.win 0).blk t).view.emb (ix2 (y 0) k)) = _
    refine congrArg (V c main_arg1) (funext fun a => Fin.ext ?_)
    match a with
    | ⟨0, _⟩ => show win0_0.index t (0 : Fin 2) * 1024 + 1 * (y 0).val = t.val * 1024 + (y 0).val; omega
    | ⟨1, _⟩ => show win0_0.index t (1 : Fin 2) * 1024 + 1 * k.val = k.val; omega
  · show V c main_v0 (((cfg0.win 1).blk t).view.emb (ix2 (y 1) k)) = _
    refine congrArg (V c main_v0) (funext fun a => Fin.ext ?_)
    match a with
    | ⟨0, _⟩ => show win0_1.index t (0 : Fin 2) * 1024 + 1 * (y 1).val = (y 1).val; omega
    | ⟨1, _⟩ => show win0_1.index t (1 : Fin 2) * 1024 + 1 * k.val = k.val; omega

/-- An index of the array is in point `t`'s tile iff each coordinate is in the tile's range on its axis. -/
theorem edge_mem (t : Fin cfg0.N) (i : S4096x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in some point's tile: row `r` in the tile of point `r / 1024`. -/
theorem edge_cover (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : (i 0).val / 1024 < cfg0.N := lt_of_lt_of_eq (by omega : (i 0).val / 1024 < 4) N_0.symm
  refine ⟨⟨(i 0).val / 1024, hN⟩, flush0_2 _, ?_⟩
  obtain ⟨-, -, -, -, e20, e21⟩ := edge_index ⟨(i 0).val / 1024, hN⟩
  rw [edge_mem]
  intro a
  match a with
  | ⟨0, _⟩ =>
    show win0_2.index ⟨(i 0).val / 1024, hN⟩ (0 : Fin 2) * 1024 ≤ (i 0).val
      ∧ (i 0).val < win0_2.index ⟨(i 0).val / 1024, hN⟩ (0 : Fin 2) * 1024 + 1024
    rw [e20]; show (i 0).val / 1024 * 1024 ≤ (i 0).val ∧ (i 0).val < (i 0).val / 1024 * 1024 + 1024; omega
  | ⟨1, _⟩ =>
    show win0_2.index ⟨(i 0).val / 1024, hN⟩ (1 : Fin 2) * 1024 ≤ (i 1).val
      ∧ (i 1).val < win0_2.index ⟨(i 0).val / 1024, hN⟩ (1 : Fin 2) * 1024 + 1024
    rw [e21]; omega

/-- The edge-feature array after the first kernel. -/
theorem edge_final (c : Dev nD) :
    (dat0 (F := Ideal) V c).arrAt 2 cfg0.N = edgeFeat (V c main_arg1) (V c main_v0) :=
  (dat0 (F := Ideal) V c).arrAt_eq_of_cover 2 _ (fun t _ => edge_flushed V c t) (fun i => edge_cover i)

end Cert.KernelIdeal.Arrays

end
-- ==== Proof.AttnArrays.lean ====
/-
  The attention matrix and the output after the second kernel: every tile written back is the tile of ONE whole-array
  function of the arrays the kernel finds, and the tiles cover the arrays.

  The second kernel runs on 64 grid points. At point `t` it loads rows `256·t … 256·t + 255` of the node inputs and
  of the incidence matrix, the whole weight matrix and the whole edge-feature array, and writes back rows
  `256·t … 256·t + 255` of the attention matrix and of the output. Row `p` of each tile it writes depends on row
  `p` of the two loaded tiles only, so it is row `256·t + p` of the whole-array function that applies the
  specification's row functions to every row. Row `r` of either array lies in the tile of point `r / 256`.
-/
import proofs.«146018_j40613210751278_2_alg».proof.Proof.Gen.KernelIdeal.Frame
import proofs.«146018_j40613210751278_2_alg».proof.Proof.KernelBody
import proofs.«146018_j40613210751278_2_alg».proof.Proof.EdgeArray
import Idealize.ShloMosaic.Lib.Pipeline.Value

set_option maxRecDepth 16384

noncomputable section

open scoped BigOperators

namespace Cert.KernelIdeal.Arrays

open Idealize.ShloMosaic Idealize.ShloMosaic.TcCoe Idealize.ShloMosaic.ValueIdx Idealize.SL.Sem
open Cert.KernelIdeal Cert.KernelIdeal.Gen Cert.NodeAttention
open Idealize.ShloMosaic.Pipeline (Dat)

variable (V : (c : Dev nD) → (b : Ref sig .tc) → Buf (Elt Ideal) ((c : Thread nD τ).loc b))

/-- The attention matrix as a function of the node inputs, the incidence matrix, the node weights and an
    edge-feature array: the specification's `prob` on every row. -/
def attnOf (X : Mat 16384 1024) (Hm : (⟨2, ![16384, 4096]⟩ : Shape).Idx → BitVec 32) (W : Mat 1024 1024)
    (E : Mat 4096 1024) : Mat 16384 4096 :=
  fun i => prob (fun k => X (ix2 (i 0) k)) (fun j => Hm (ix2 (i 0) j)) W E (i 1)

/-- The output likewise: `elu` of the specification's `agg` on every row. -/
def outOf (X : Mat 16384 1024) (Hm : (⟨2, ![16384, 4096]⟩ : Shape).Idx → BitVec 32) (W : Mat 1024 1024)
    (E : Mat 4096 1024) : Mat 16384 1024 :=
  fun i => elu (agg (fun k => X (ix2 (i 0) k)) (fun j => Hm (ix2 (i 0) j)) W E (i 1))

/-- Where the six windows' tiles sit at point `t`: the node inputs, the incidence matrix and the two results at row
    block `t`; the weights and the edge features whole. -/
theorem attn_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- One attention tile: if rows `y 0` of the loaded node inputs and incidence entries are rows `r` of the arrays, and
    the loaded weights and edge features are the arrays, the stored entry `y` is entry `(r, y 1)` of `attnOf`. -/
theorem attn_point (x0 : Vec Ideal S256x1024 .f32) (x1 : Vec Ideal S1024x1024 .bf16) (x2 : Vec Ideal S4096x1024 .bf16)
    (x3 : Vec Ideal S256x4096 .i32) (X : Mat 16384 1024) (Hm : (⟨2, ![16384, 4096]⟩ : Shape).Idx → BitVec 32)
    (W : Mat 1024 1024) (E : Mat 4096 1024) (y : S256x4096.Idx) (r : Fin 16384)
    (h0 : ∀ k : Fin 1024, x0 (ix2 (y 0) k) = X (ix2 r k)) (h1 : x1 = W) (h2 : x2 = E)
    (h3 : ∀ j : Fin 4096, x3 (ix2 (y 0) j) = Hm (ix2 r j)) :
    k1_pay3 (F := Ideal) x0 x1 x2 x3 y = attnOf X Hm W E (ix2 r (y 1)) := by
  subst h1 h2
  refine (congrArg (k1_pay3 (F := Ideal) x0 x1 x2 x3) (eq_ix2 y)).trans
    ((Body.prob_tile x0 x1 x2 x3 (y 0) (y 1)).trans ?_)
  show prob (fun k => x0 (ix2 (y 0) k)) (fun j' => x3 (ix2 (y 0) j')) x1 x2 (y 1)
    = prob (fun k => X (ix2 r k)) (fun j => Hm (ix2 r j)) x1 x2 (y 1)
  rw [funext h0, funext h3]

/-- One output tile, under the same hypotheses: the stored entry `y` is entry `(r, y 1)` of `outOf`. -/
theorem out_point (x0 : Vec Ideal S256x1024 .f32) (x1 : Vec Ideal S1024x1024 .bf16) (x2 : Vec Ideal S4096x1024 .bf16)
    (x3 : Vec Ideal S256x4096 .i32) (X : Mat 16384 1024) (Hm : (⟨2, ![16384, 4096]⟩ : Shape).Idx → BitVec 32)
    (W : Mat 1024 1024) (E : Mat 4096 1024) (y : S256x1024.Idx) (r : Fin 16384)
    (h0 : ∀ k : Fin 1024, x0 (ix2 (y 0) k) = X (ix2 r k)) (h1 : x1 = W) (h2 : x2 = E)
    (h3 : ∀ j : Fin 4096, x3 (ix2 (y 0) j) = Hm (ix2 r j)) :
    k1_pay1 (F := Ideal) (k1_pay4 x0 x1 x2 x3) (k1_pay5 x0 x1 x2 x3) (k1_pay6 x0 x1 x2 x3) y
      = outOf X Hm W E (ix2 r (y 1)) := by
  subst h1 h2
  refine (congrArg (k1_pay1 (F := Ideal) (k1_pay4 x0 x1 x2 x3) (k1_pay5 x0 x1 x2 x3) (k1_pay6 x0 x1 x2 x3)) (eq_ix2 y)).trans
    ((Body.out_tile x0 x1 x2 x3 (y 0) (y 1)).trans ?_)
  show elu (agg (fun k => x0 (ix2 (y 0) k)) (fun j' => x3 (ix2 (y 0) j')) x1 x2 (y 1))
    = elu (agg (fun k => X (ix2 r k)) (fun j => Hm (ix2 r j)) x1 x2 (y 1))
  rw [funext h0, funext h3]

section Blocks

variable (c : Dev nD) (t : Fin cfg1.N)

/-- The node-input tile at point `t`, row `p`, is row `256·t + p` of the array. -/
theorem node_block (p : Fin 256) (k : Fin 1024) (r : Fin 16384) (hr : r.val = t.val * 256 + p.val) :
    iblk1 V c 0 t (ix2 p k) = V c main_arg0 (ix2 r k) := by
  obtain ⟨e00, e01, -⟩ := attn_index t
  show V c main_arg0 (((cfg1.win 0).blk t).view.emb (ix2 p k)) = _
  refine congrArg (V c main_arg0) (funext fun a => Fin.ext ?_)
  match a with
  | ⟨0, _⟩ => show win1_0.index t (0 : Fin 2) * 256 + 1 * p.val = r.val; omega
  | ⟨1, _⟩ => show win1_0.index t (1 : Fin 2) * 1024 + 1 * k.val = k.val; omega

/-- The incidence tile at point `t`, row `p`, is row `256·t + p` of the array. -/
theorem incidence_block (p : Fin 256) (j : Fin 4096) (r : Fin 16384) (hr : r.val = t.val * 256 + p.val) :
    iblk1 V c 3 t (ix2 p j) = V c main_arg2 (ix2 r j) := by
  obtain ⟨-, -, -, -, -, -, e30, e31, -⟩ := attn_index t
  show V c main_arg2 (((cfg1.win 3).blk t).view.emb (ix2 p j)) = _
  refine congrArg (V c main_arg2) (funext fun a => Fin.ext ?_)
  match a with
  | ⟨0, _⟩ => show win1_3.index t (0 : Fin 2) * 256 + 1 * p.val = r.val; omega
  | ⟨1, _⟩ => show win1_3.index t (1 : Fin 2) * 4096 + 1 * j.val = j.val; omega

/-- The weights' tile is the whole array. -/
theorem weight_block : iblk1 V c 1 t = V c main_v1 := by
  obtain ⟨-, -, e10, e11, -⟩ := attn_index t
  funext y
  have hy0 : (y 0).val < 1024 := (y 0).isLt
  have hy1 : (y 1).val < 1024 := (y 1).isLt
  show V c main_v1 (((cfg1.win 1).blk t).view.emb y) = V c main_v1 y
  refine congrArg (V c main_v1) (funext fun a => Fin.ext ?_)
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The edge features' tile is the whole array. -/
theorem edge_block : iblk1 V c 2 t = V c main_v2 := by
  obtain ⟨-, -, -, -, e20, e21, -⟩ := attn_index t
  funext y
  have hy0 : (y 0).val < 4096 := (y 0).isLt
  have hy1 : (y 1).val < 1024 := (y 1).isLt
  show V c main_v2 (((cfg1.win 2).blk t).view.emb y) = V c main_v2 y
  refine congrArg (V c main_v2) (funext fun a => Fin.ext ?_)
  match a with
  | ⟨0, _⟩ => show win1_2.index t (0 : Fin 2) * 4096 + 1 * (y 0).val = (y 0).val; omega
  | ⟨1, _⟩ => show win1_2.index t (1 : Fin 2) * 1024 + 1 * (y 1).val = (y 1).val; omega

end Blocks

/-- What point `t` writes back to the attention matrix is tile `t` of `attnOf` of the arrays as the kernel finds them. -/
theorem attn_flushed (c : Dev nD) (t : Fin cfg1.N) :
    (dat1 (F := Ideal) V c).flushed 4 t
      = ((cfg1.win 4).blk t).view.read (Elt Ideal)
          (attnOf (V c main_arg0) (V c main_arg2) (V c main_v1) (V c main_v2)) := by
  show (cfg1.win 4).cut (grid1.coords t) ((dat1 (F := Ideal) V c).after 4 t) = _
  rw [after1_4]
  unfold out1_4
  rw [View.canon_unit_zero offs_zero]
  simp only [View.ld_unit_zero (S := S256x1024) offs_zero, View.ld_unit_zero (S := S1024x1024) offs_zero,
    View.ld_unit_zero (S := S4096x1024) offs_zero, View.ld_unit_zero (S := S256x4096) offs_zero]
  obtain ⟨-, -, -, -, -, -, -, -, e40, e41, -⟩ := attn_index t
  have ht : t.val < 64 := lt_of_lt_of_eq t.isLt N_1
  funext y
  have hy0 : (y 0).val < 256 := (y 0).isLt
  have hy1 : (y 1).val < 4096 := (y 1).isLt
  show k1_pay3 (F := Ideal) (iblk1 V c 0 t) (iblk1 V c 1 t) (iblk1 V c 2 t) (iblk1 V c 3 t) y
    = attnOf (V c main_arg0) (V c main_arg2) (V c main_v1) (V c main_v2) (((cfg1.win 4).blk t).view.emb y)
  have hemb : ((cfg1.win 4).blk t).view.emb y
      = ix2 (⟨t.val * 256 + (y 0).val, by omega⟩ : Fin 16384) (y 1) := by
    funext a; apply Fin.ext
    match a with
    | ⟨0, _⟩ => show win1_4.index t (0 : Fin 2) * 256 + 1 * (y 0).val = t.val * 256 + (y 0).val; omega
    | ⟨1, _⟩ => show win1_4.index t (1 : Fin 2) * 4096 + 1 * (y 1).val = (y 1).val; omega
  rw [hemb]
  exact attn_point (iblk1 V c 0 t) (iblk1 V c 1 t) (iblk1 V c 2 t) (iblk1 V c 3 t)
    (V c main_arg0) (V c main_arg2) (V c main_v1) (V c main_v2) y
    (⟨t.val * 256 + (y 0).val, by omega⟩ : Fin 16384)
    (fun k => node_block V c t (y 0) k _ rfl) (weight_block V c t) (edge_block V c t)
    (fun j => incidence_block V c t (y 0) j _ rfl)

/-- What point `t` writes back to the output is tile `t` of `outOf` of the arrays as the kernel finds them. -/
theorem out_flushed (c : Dev nD) (t : Fin cfg1.N) :
    (dat1 (F := Ideal) V c).flushed 5 t
      = ((cfg1.win 5).blk t).view.read (Elt Ideal)
          (outOf (V c main_arg0) (V c main_arg2) (V c main_v1) (V c main_v2)) := by
  show (cfg1.win 5).cut (grid1.coords t) ((dat1 (F := Ideal) V c).after 5 t) = _
  rw [after1_5]
  unfold out1_5
  rw [View.canon_unit_zero offs_zero]
  simp only [View.ld_unit_zero (S := S256x1024) offs_zero, View.ld_unit_zero (S := S1024x1024) offs_zero,
    View.ld_unit_zero (S := S4096x1024) offs_zero, View.ld_unit_zero (S := S256x4096) offs_zero]
  obtain ⟨-, -, -, -, -, -, -, -, -, -, e50, e51⟩ := attn_index t
  have ht : t.val < 64 := lt_of_lt_of_eq t.isLt N_1
  funext y
  have hy0 : (y 0).val < 256 := (y 0).isLt
  have hy1 : (y 1).val < 1024 := (y 1).isLt
  show k1_pay1 (F := Ideal)
      (k1_pay4 (iblk1 V c 0 t) (iblk1 V c 1 t) (iblk1 V c 2 t) (iblk1 V c 3 t))
      (k1_pay5 (iblk1 V c 0 t) (iblk1 V c 1 t) (iblk1 V c 2 t) (iblk1 V c 3 t))
      (k1_pay6 (iblk1 V c 0 t) (iblk1 V c 1 t) (iblk1 V c 2 t) (iblk1 V c 3 t)) y
    = outOf (V c main_arg0) (V c main_arg2) (V c main_v1) (V c main_v2) (((cfg1.win 5).blk t).view.emb y)
  have hemb : ((cfg1.win 5).blk t).view.emb y
      = ix2 (⟨t.val * 256 + (y 0).val, by omega⟩ : Fin 16384) (y 1) := by
    funext a; apply Fin.ext
    match a with
    | ⟨0, _⟩ => show win1_5.index t (0 : Fin 2) * 256 + 1 * (y 0).val = t.val * 256 + (y 0).val; omega
    | ⟨1, _⟩ => show win1_5.index t (1 : Fin 2) * 1024 + 1 * (y 1).val = (y 1).val; omega
  rw [hemb]
  exact out_point (iblk1 V c 0 t) (iblk1 V c 1 t) (iblk1 V c 2 t) (iblk1 V c 3 t)
    (V c main_arg0) (V c main_arg2) (V c main_v1) (V c main_v2) y
    (⟨t.val * 256 + (y 0).val, by omega⟩ : Fin 16384)
    (fun k => node_block V c t (y 0) k _ rfl) (weight_block V c t) (edge_block V c t)
    (fun j => incidence_block V c t (y 0) j _ rfl)

/-- An index of the attention matrix is in point `t`'s tile iff each coordinate is in the tile's range on its axis. -/
theorem attn_mem (t : Fin cfg1.N) (i : S16384x4096.Idx) :
    i ∈ ((cfg1.win 4).blk t).view.set ↔ ∀ a : Fin 2, win1_4.index t a * S256x4096.size a ≤ (i a).val
      ∧ (i a).val < win1_4.index t a * S256x4096.size a + S256x4096.size a := by
  show i ∈ ((View.whole main_v3_0).slice (win1_4.rect t)).set ↔ _
  rw [View.set_slice_whole, Rect.mem_set_unit]
  exact Iff.rfl

/-- The same for the output. -/
theorem out_mem (t : Fin cfg1.N) (i : S16384x1024.Idx) :
    i ∈ ((cfg1.win 5).blk t).view.set ↔ ∀ a : Fin 2, win1_5.index t a * S256x1024.size a ≤ (i a).val
      ∧ (i a).val < win1_5.index t a * S256x1024.size a + S256x1024.size a := by
  show i ∈ ((View.whole main_v3_1).slice (win1_5.rect t)).set ↔ _
  rw [View.set_slice_whole, Rect.mem_set_unit]
  exact Iff.rfl

/-- Every index of the attention matrix is in some point's tile: row `r` in the tile of point `r / 256`. -/
theorem attn_cover (i : S16384x4096.Idx) :
    ∃ t : Fin cfg1.N, (cfg1.win 4).flush t = true ∧ i ∈ ((cfg1.win 4).blk t).view.set := by
  have hi0 : (i 0).val < 16384 := (i 0).isLt
  have hi1 : (i 1).val < 4096 := (i 1).isLt
  have hN : (i 0).val / 256 < cfg1.N := lt_of_lt_of_eq (by omega : (i 0).val / 256 < 64) N_1.symm
  refine ⟨⟨(i 0).val / 256, hN⟩, flush1_4 _, ?_⟩
  obtain ⟨-, -, -, -, -, -, -, -, e40, e41, -⟩ := attn_index ⟨(i 0).val / 256, hN⟩
  rw [attn_mem]
  intro a
  match a with
  | ⟨0, _⟩ =>
    show win1_4.index ⟨(i 0).val / 256, hN⟩ (0 : Fin 2) * 256 ≤ (i 0).val
      ∧ (i 0).val < win1_4.index ⟨(i 0).val / 256, hN⟩ (0 : Fin 2) * 256 + 256
    rw [e40]; show (i 0).val / 256 * 256 ≤ (i 0).val ∧ (i 0).val < (i 0).val / 256 * 256 + 256; omega
  | ⟨1, _⟩ =>
    show win1_4.index ⟨(i 0).val / 256, hN⟩ (1 : Fin 2) * 4096 ≤ (i 1).val
      ∧ (i 1).val < win1_4.index ⟨(i 0).val / 256, hN⟩ (1 : Fin 2) * 4096 + 4096
    rw [e41]; omega

/-- The same for the output. -/
theorem out_cover (i : S16384x1024.Idx) :
    ∃ t : Fin cfg1.N, (cfg1.win 5).flush t = true ∧ i ∈ ((cfg1.win 5).blk t).view.set := by
  have hi0 : (i 0).val < 16384 := (i 0).isLt
  have hi1 : (i 1).val < 1024 := (i 1).isLt
  have hN : (i 0).val / 256 < cfg1.N := lt_of_lt_of_eq (by omega : (i 0).val / 256 < 64) N_1.symm
  refine ⟨⟨(i 0).val / 256, hN⟩, flush1_5 _, ?_⟩
  obtain ⟨-, -, -, -, -, -, -, -, -, -, e50, e51⟩ := attn_index ⟨(i 0).val / 256, hN⟩
  rw [out_mem]
  intro a
  match a with
  | ⟨0, _⟩ =>
    show win1_5.index ⟨(i 0).val / 256, hN⟩ (0 : Fin 2) * 256 ≤ (i 0).val
      ∧ (i 0).val < win1_5.index ⟨(i 0).val / 256, hN⟩ (0 : Fin 2) * 256 + 256
    rw [e50]; show (i 0).val / 256 * 256 ≤ (i 0).val ∧ (i 0).val < (i 0).val / 256 * 256 + 256; omega
  | ⟨1, _⟩ =>
    show win1_5.index ⟨(i 0).val / 256, hN⟩ (1 : Fin 2) * 1024 ≤ (i 1).val
      ∧ (i 1).val < win1_5.index ⟨(i 0).val / 256, hN⟩ (1 : Fin 2) * 1024 + 1024
    rw [e51]; omega

/-- The attention matrix after the second kernel. -/
theorem attn_final (c : Dev nD) :
    (dat1 (F := Ideal) V c).arrAt 4 cfg1.N
      = attnOf (V c main_arg0) (V c main_arg2) (V c main_v1) (V c main_v2) :=
  (dat1 (F := Ideal) V c).arrAt_eq_of_cover 4 _ (fun t _ => attn_flushed V c t) (fun i => attn_cover i)

/-- The output after the second kernel. -/
theorem out_final (c : Dev nD) :
    (dat1 (F := Ideal) V c).arrAt 5 cfg1.N
      = outOf (V c main_arg0) (V c main_arg2) (V c main_v1) (V c main_v2) :=
  (dat1 (F := Ideal) V c).arrAt_eq_of_cover 5 _ (fun t _ => out_flushed V c t) (fun i => out_cover i)

end Cert.KernelIdeal.Arrays

end
-- ==== Proof.KernelRun.lean ====
/-
  The idealized kernel's run with its two results named.

  The program is two conversions of the weight matrices on the host (the identity on the extended reals), then the
  edge-feature kernel, then the attention kernel. The buffer contents at the three boundaries are a fold from the
  launch memory: after the host operations; after the first kernel, whose one output array holds `edgeFeat` of the
  edge inputs and the edge weights; after the second kernel, whose two output arrays hold `attnOf` and `outOf` of
  the node inputs, the incidence matrix, the node weights and that edge-feature array. Every buffer the second
  kernel reads is walked back to the launch memory: an argument no one writes stays as launched, a converted
  weight matrix is the argument itself. So every weakly fair execution ends with the attention matrix at
  `attnB` and the output at `attnOut` of the five argument arrays, the arguments unchanged.
-/
import proofs.«146018_j40613210751278_2_alg».proof.Proof.Gen.KernelIdeal.Frame
import proofs.«146018_j40613210751278_2_alg».proof.Proof.EdgeArray
import proofs.«146018_j40613210751278_2_alg».proof.Proof.AttnArrays
import Idealize.ShloMosaic.Lib.StableHlo.Run

set_option maxRecDepth 16384

noncomputable section

namespace Cert.KernelIdeal.Ends

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.NodeAttention

local notation "𝕄" => MT nD τ sig Unit (Elt Ideal) ℕ (UR sig nD τ) ℕ

variable (m : (ℓ : Loc nD τ sig) → Buf (Elt Ideal) ℓ) (ρ : Dev nD → PrngReg)

/-! ## The buffers the kernels read, walked back to the launch memory -/

/-- Entering the first kernel, the edge inputs are as launched. -/
theorem V1_arg1 (c : Dev nD) : V1 m ρ c main_arg1 = m ((c : Thread nD τ).loc main_arg1) := by
  dsimp only [V1, W1, hostOps0]; after_results

/-- Entering the first kernel, the converted edge weights are the edge weights. -/
theorem V1_v0 (c : Dev nD) :
    (V1 m ρ c main_v0 : Mat 1024 1024) = (m ((c : Thread nD τ).loc main_arg3) : Mat 1024 1024) := by
  dsimp only [V1, W1, hostOps0]; after_results; rfl

/-- Entering the second kernel, the node inputs are as launched. -/
theorem V2_arg0 (c : Dev nD) : V2 m ρ c main_arg0 = m ((c : Thread nD τ).loc main_arg0) := by
  refine (W2_of_ne m ρ c main_arg0 (by decide)).trans ?_
  dsimp only [W1, hostOps0]; after_results

/-- Entering the second kernel, the incidence matrix is as launched. -/
theorem V2_arg2 (c : Dev nD) : V2 m ρ c main_arg2 = m ((c : Thread nD τ).loc main_arg2) := by
  refine (W2_of_ne m ρ c main_arg2 (by decide)).trans ?_
  dsimp only [W1, hostOps0]; after_results

/-- Entering the second kernel, the converted node weights are the node weights. -/
theorem V2_v1 (c : Dev nD) :
    (V2 m ρ c main_v1 : Mat 1024 1024) = (m ((c : Thread nD τ).loc main_arg4) : Mat 1024 1024) := by
  refine (W2_of_ne m ρ c main_v1 (by decide)).trans ?_
  dsimp only [W1, hostOps0]; after_results; rfl

/-- Entering the second kernel, the edge-feature array is `edgeFeat` of the edge inputs and the edge weights. -/
theorem V2_v2 (c : Dev nD) :
    (V2 m ρ c main_v2 : Mat 4096 1024)
      = edgeFeat (m ((c : Thread nD τ).loc main_arg1)) (m ((c : Thread nD τ).loc main_arg3)) := by
  refine (W2_arr m ρ c 2).trans ?_
  rw [Arrays.edge_final (V1 m ρ) c, V1_arg1, V1_v0]

/-! ## The two results at the end -/

/-- The attention matrix at the end. -/
theorem attn_value (c : Dev nD) :
    (W3 m ρ c (Proc.devRef .tc main_v3_0) : Mat 16384 4096)
      = attnB (m ((c : Thread nD τ).loc main_arg0)) (m ((c : Thread nD τ).loc main_arg1))
          (m ((c : Thread nD τ).loc main_arg2)) (m ((c : Thread nD τ).loc main_arg3))
          (m ((c : Thread nD τ).loc main_arg4)) := by
  refine (W3_arr m ρ c 4).trans ?_
  rw [Arrays.attn_final (V2 m ρ) c, V2_arg0, V2_arg2, V2_v1, V2_v2]
  rfl

/-- The output at the end. -/
theorem out_value (c : Dev nD) :
    (W3 m ρ c (Proc.devRef .tc main_v3_1) : Mat 16384 1024)
      = attnOut (m ((c : Thread nD τ).loc main_arg0)) (m ((c : Thread nD τ).loc main_arg1))
          (m ((c : Thread nD τ).loc main_arg2)) (m ((c : Thread nD τ).loc main_arg3))
          (m ((c : Thread nD τ).loc main_arg4)) := by
  refine (W3_arr m ρ c 5).trans ?_
  rw [Arrays.out_final (V2 m ρ) c, V2_arg0, V2_arg2, V2_v1, V2_v2]
  rfl

/-! ## The run -/

set_option backward.isDefEq.respectTransparency.types false in
/-- Every weakly fair execution of the idealized kernel terminates, nothing faulting, with the output at `attnOut`
    and the attention matrix at `attnB` of the argument arrays, and the arguments as launched: the launch over the
    program's three segments, the last boundary's contents read against the final state. -/
theorem run : θ_run defs (onTc (τ := τ) (main (F := Ideal))) ⟨m, fun _ => 0, ρ⟩ (fun r => ∀ c : Dev nD,
      r.2.mem ((c.tc : Thread nD τ).loc main_v3_1)
        = attnOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_v3_0)
        = attnB (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3_1 (by decide))).trans (out_value m ρ c),
       (h c _ (mem_uc main_v3_0 (by decide))).trans (attn_value m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Ends

end
-- ==== Proof.RefRun.lean ====
import proofs.«146018_j40613210751278_2_alg».proof.ReferenceIdeal
import proofs.«146018_j40613210751278_2_alg».proof.Proof.Gen.ReferenceIdeal
import Idealize.ShloMosaic.Lib.StableHlo.Run

/-!
# The reference's run, read back

The reference program is a straight line of host tensor operations: two projections (`e · Weᵀ`, `x · Wnᵀ`),
their scaled product, a mask from the integer table, a row softmax of the masked scores, the product with the
mask again (the second result), its product with the projected entities, and `elu` of that (the first result).
Its three calls are inlined at their call sites, each over the buffers of that call's record. This module lists
the operations in order, shows @main equal to running the list, and reads each result buffer after the run as the
composed pure term of the five argument arrays.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 48 operations, in order: its own thirty, the three of `_where` (the fill value converted to its own
    type, broadcast, the select) after the thirteenth, and at the end the fifteen of `elu` — seven of its own, the
    three of `_where_0`, four of its own, the one of `_where_1`. -/
abbrev ops : List (HloOp τ sig (Elt F)) :=
  [ unary main_arg3 main_v0 ((transpose S1024x1024 [1, 0] · transposes_S1024x1024_S1024x1024_1_0) : (⟨S1024x1024, .f32⟩ : BufTy).Contents (Elt F) → (⟨S1024x1024, .f32⟩ : BufTy).Contents (Elt F)),
    binary main_arg1 main_v0 main_v1 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_arg4 main_v2 ((transpose S1024x1024 [1, 0] · transposes_S1024x1024_S1024x1024_1_0) : (⟨S1024x1024, .f32⟩ : BufTy).Contents (Elt F) → (⟨S1024x1024, .f32⟩ : BufTy).Contents (Elt F)),
    binary main_arg0 main_v2 main_v3 ((fun l r => Host.dotGeneral dot_S16384x1024_S1024x1024_S16384x1024_1_0_0_1_n_n none l r) : (⟨S16384x1024, .f32⟩ : BufTy).Contents (Elt F) → (⟨S1024x1024, .f32⟩ : BufTy).Contents (Elt F) → (⟨S16384x1024, .f32⟩ : BufTy).Contents (Elt F)),
    unary main_v1 main_v4 ((transpose S1024x4096 [1, 0] · transposes_S4096x1024_S1024x4096_1_0) : (⟨S4096x1024, .f32⟩ : BufTy).Contents (Elt F) → (⟨S1024x4096, .f32⟩ : BufTy).Contents (Elt F)),
    binary main_v3 main_v4 main_v5 ((fun l r => Host.dotGeneral dot_S16384x1024_S1024x4096_S16384x4096_1_0_0_1_n_n none l r) : (⟨S16384x1024, .f32⟩ : BufTy).Contents (Elt F) → (⟨S1024x4096, .f32⟩ : BufTy).Contents (Elt F) → (⟨S16384x4096, .f32⟩ : BufTy).Contents (Elt F)),
    nullary main_cst (constant S_ .f32 0x3D000000#32),
    unary main_cst main_v6 (broadcastInDim S16384x4096 ![] bcast_S_S16384x4096 : (⟨S_, .f32⟩ : BufTy).Contents (Elt F) → (⟨S16384x4096, .f32⟩ : BufTy).Contents (Elt F)),
    binary main_v5 main_v6 main_v7 (mulf : (⟨S16384x4096, .f32⟩ : BufTy).Contents (Elt F) → (⟨S16384x4096, .f32⟩ : BufTy).Contents (Elt F) → (⟨S16384x4096, .f32⟩ : BufTy).Contents (Elt F)),
    nullary main_c (constantI S_ 32 0#32),
    unary main_c main_v8 (broadcastInDim S16384x4096 ![] bcast_S_S16384x4096 : (⟨S_, .i32⟩ : BufTy).Contents (Elt F) → (⟨S16384x4096, .i32⟩ : BufTy).Contents (Elt F)),
    binary main_arg2 main_v8 main_v9 (cmpi .sgt : (⟨S16384x4096, .i32⟩ : BufTy).Contents (Elt F) → (⟨S16384x4096, .i32⟩ : BufTy).Contents (Elt F) → (⟨S16384x4096, .i1⟩ : BufTy).Contents (Elt F)),
    nullary main_cst_0 (constant S_ .f32 0xCE6E6B28#32),
    TRef.unary (.of main_cst_0) main_call0.v0 id,
    TRef.unary main_call0.v0 main_call0.v1 (broadcastInDim S16384x4096 ![] bcast_S_S16384x4096),
    TRef.ternary (.of main_v9) (.of main_v7) main_call0.v1 main_call0.v2 select,
    nullary main_cst_1 (constant S_ .f32 0xFF800000#32),
    binary main_v10 main_cst_1 main_v11 ((fun x v => Host.reduce FloatOps.maximumf x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    nullary main_cst_2 (constant S_ .f32 0xFF800000#32),
    unary main_cst_2 main_v12 (broadcastInDim S16384 ![] bcast_S_S16384 : (⟨S_, .f32⟩ : BufTy).Contents (Elt F) → (⟨S16384, .f32⟩ : BufTy).Contents (Elt F)),
    binary main_v12 main_v11 main_v13 (maximumf : (⟨S16384, .f32⟩ : BufTy).Contents (Elt F) → (⟨S16384, .f32⟩ : BufTy).Contents (Elt F) → (⟨S16384, .f32⟩ : BufTy).Contents (Elt F)),
    unary main_v13 main_v14 (broadcastInDim S16384x1 ![0] bcast_S16384_S16384x1_0 : (⟨S16384, .f32⟩ : BufTy).Contents (Elt F) → (⟨S16384x1, .f32⟩ : BufTy).Contents (Elt F)),
    unary main_v14 main_v15 (broadcastInDim S16384x4096 ![0, 1] bcast_S16384x1_S16384x4096_0_1 : (⟨S16384x1, .f32⟩ : BufTy).Contents (Elt F) → (⟨S16384x4096, .f32⟩ : BufTy).Contents (Elt F)),
    binary main_v10 main_v15 main_v16 (subf : (⟨S16384x4096, .f32⟩ : BufTy).Contents (Elt F) → (⟨S16384x4096, .f32⟩ : BufTy).Contents (Elt F) → (⟨S16384x4096, .f32⟩ : BufTy).Contents (Elt F)),
    unary main_v16 main_v17 (Host.exp : (⟨S16384x4096, .f32⟩ : BufTy).Contents (Elt F) → (⟨S16384x4096, .f32⟩ : BufTy).Contents (Elt F)),
    nullary main_cst_3 (constant S_ .f32 0x00000000#32),
    binary main_v17 main_cst_3 main_v18 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_v18 main_v19 (broadcastInDim S16384x1 ![0] bcast_S16384_S16384x1_0 : (⟨S16384, .f32⟩ : BufTy).Contents (Elt F) → (⟨S16384x1, .f32⟩ : BufTy).Contents (Elt F)),
    unary main_v19 main_v20 (broadcastInDim S16384x4096 ![0, 1] bcast_S16384x1_S16384x4096_0_1 : (⟨S16384x1, .f32⟩ : BufTy).Contents (Elt F) → (⟨S16384x4096, .f32⟩ : BufTy).Contents (Elt F)),
    binary main_v17 main_v20 main_v21 (Host.divf : (⟨S16384x4096, .f32⟩ : BufTy).Contents (Elt F) → (⟨S16384x4096, .f32⟩ : BufTy).Contents (Elt F) → (⟨S16384x4096, .f32⟩ : BufTy).Contents (Elt F)),
    unary main_v9 main_v22 (uitofp .f32 : (⟨S16384x4096, .i1⟩ : BufTy).Contents (Elt F) → (⟨S16384x4096, .f32⟩ : BufTy).Contents (Elt F)),
    binary main_v21 main_v22 main_v23 (mulf : (⟨S16384x4096, .f32⟩ : BufTy).Contents (Elt F) → (⟨S16384x4096, .f32⟩ : BufTy).Contents (Elt F) → (⟨S16384x4096, .f32⟩ : BufTy).Contents (Elt F)),
    binary main_v23 main_v1 main_v24 ((fun l r => Host.dotGeneral dot_S16384x4096_S4096x1024_S16384x1024_1_0_0_1_n_n none l r) : (⟨S16384x4096, .f32⟩ : BufTy).Contents (Elt F) → (⟨S4096x1024, .f32⟩ : BufTy).Contents (Elt F) → (⟨S16384x1024, .f32⟩ : BufTy).Contents (Elt F)),
    TRef.nullary main_call1.cst (constant S_ .f32 0x00000000#32),
    TRef.unary main_call1.cst main_call1.v0 (broadcastInDim S16384x1024 ![] bcast_S_S16384x1024),
    TRef.binary (.of main_v24) main_call1.v0 main_call1.v1 (cmpf .ogt),
    TRef.nullary main_call1.cst_0 (constant S_ .f32 0x00000000#32),
    TRef.unary main_call1.cst_0 main_call1.v2 (broadcastInDim S16384x1024 ![] bcast_S_S16384x1024),
    TRef.binary (.of main_v24) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S16384x1024 ![] bcast_S_S16384x1024),
    TRef.ternary main_call1.v3 main_call1.call0.v1 (.of main_v24) main_call1.call0.v2 select,
    TRef.unary main_call1.call0.v2 main_call1.v5 Host.expm1,
    TRef.nullary main_call1.cst_2 (constant S_ .f32 0x3F800000#32),
    TRef.unary main_call1.cst_2 main_call1.v6 (broadcastInDim S16384x1024 ![] bcast_S_S16384x1024),
    TRef.binary main_call1.v6 main_call1.v5 main_call1.v7 mulf,
    TRef.ternary main_call1.v1 (.of main_v24) main_call1.v7 main_call1.call1.v0 select ]

-- forty-eight binds re-associated: the rewrite under the chain recurses once per statement
set_option maxRecDepth 1024 in
/-- @main is that straight line: the callees' definitions unfolded at their calls and the records at their fields,
    both sides are one chain of steps once sequencing is reassociated. -/
theorem main_eq (c : Dev nD) : main (F := F) c = seq ops := by
  simp only [main, fn_where.body, fn_elu.body, fn_where_0.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., binary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

/-! ## The results as pure terms of the arguments

`x` the nodes (16384 × 1024), `e` the entities (4096 × 1024), `H` the integer incidence table (16384 × 4096),
`We` and `Wn` the two square weights. Each definition is one value of the program, its operations exactly as
the program has them; a value with several uses is a definition of its own. -/

section Terms

variable (x : (⟨S16384x1024, .f32⟩ : BufTy).Contents (Elt F)) (e : (⟨S4096x1024, .f32⟩ : BufTy).Contents (Elt F))
  (H : (⟨S16384x4096, .i32⟩ : BufTy).Contents (Elt F)) (We Wn : (⟨S1024x1024, .f32⟩ : BufTy).Contents (Elt F))

/-- %1: the projected entities, `e · Weᵀ` (4096 × 1024). -/
def he : (⟨S4096x1024, .f32⟩ : BufTy).Contents (Elt F) :=
  Host.dotGeneral dot_S4096x1024_S1024x1024_S4096x1024_1_0_0_1_n_n none e
    (transpose S1024x1024 [1, 0] We transposes_S1024x1024_S1024x1024_1_0)

/-- %9: the mask, `H > 0` elementwise (signed). -/
def mask : (⟨S16384x4096, .i1⟩ : BufTy).Contents (Elt F) :=
  cmpi .sgt H (broadcastInDim S16384x4096 ![] bcast_S_S16384x4096 (constantI S_ 32 0#32))

/-- %7: the scaled scores, `((x · Wnᵀ) · (e · Weᵀ)ᵀ) * 2⁻⁵` (16384 × 4096). -/
def scores : (⟨S16384x4096, .f32⟩ : BufTy).Contents (Elt F) :=
  mulf
    (Host.dotGeneral dot_S16384x1024_S1024x4096_S16384x4096_1_0_0_1_n_n none
      (Host.dotGeneral dot_S16384x1024_S1024x1024_S16384x1024_1_0_0_1_n_n none x
        (transpose S1024x1024 [1, 0] Wn transposes_S1024x1024_S1024x1024_1_0))
      (transpose S1024x4096 [1, 0] (he e We) transposes_S4096x1024_S1024x4096_1_0))
    (broadcastInDim S16384x4096 ![] bcast_S_S16384x4096 (constant S_ .f32 0x3D000000#32))

/-- %10: the masked scores: the score where the mask is set, `-1e9` elsewhere (the fill value passes through the
    callee's change of format to its own format, the identity). -/
def masked : (⟨S16384x4096, .f32⟩ : BufTy).Contents (Elt F) :=
  select (mask H) (scores x e We Wn)
    (broadcastInDim S16384x4096 ![] bcast_S_S16384x4096 (id (constant S_ .f32 0xCE6E6B28#32)))

/-- %13: each row's maximum of the masked scores (the reduction from `-∞`, then the maximum with `-∞` again). -/
def rowMax : (⟨S16384, .f32⟩ : BufTy).Contents (Elt F) :=
  maximumf (broadcastInDim S16384 ![] bcast_S_S16384 (constant S_ .f32 0xFF800000#32))
    (Host.reduce FloatOps.maximumf (masked x e H We Wn) (constant S_ .f32 0xFF800000#32)
      reducesTo_S16384x4096_S16384_d1 h_S_)

/-- %17: the exponential of the masked scores less their row's maximum. -/
def expd : (⟨S16384x4096, .f32⟩ : BufTy).Contents (Elt F) :=
  Host.exp (subf (masked x e H We Wn)
    (broadcastInDim S16384x4096 ![0, 1] bcast_S16384x1_S16384x4096_0_1
      (broadcastInDim S16384x1 ![0] bcast_S16384_S16384x1_0 (rowMax x e H We Wn))))

/-- %23, the second result: the row softmax of the masked scores, times the mask as a float. -/
def resB : (⟨S16384x4096, .f32⟩ : BufTy).Contents (Elt F) :=
  mulf
    (Host.divf (expd x e H We Wn)
      (broadcastInDim S16384x4096 ![0, 1] bcast_S16384x1_S16384x4096_0_1
        (broadcastInDim S16384x1 ![0] bcast_S16384_S16384x1_0
          (Host.reduceAdd (expd x e H We Wn) (constant S_ .f32 0x00000000#32)
            reducesTo_S16384x4096_S16384_d1 h_S_))))
    (uitofp .f32 (mask H))

/-- %24: the aggregate, the second result times the projected entities (16384 × 1024). -/
def agg : (⟨S16384x1024, .f32⟩ : BufTy).Contents (Elt F) :=
  Host.dotGeneral dot_S16384x4096_S4096x1024_S16384x1024_1_0_0_1_n_n none (resB x e H We Wn) (he e We)

/-- `elu` of a 16384 × 1024 array, as its callee computes it: where `a > 0` it is `a`, elsewhere
    `1 * expm1 (a where a ≤ 0, else 0)` — the comparison with zero stated twice, the zero of the inner select through
    its callee's change of format (the identity). -/
def eluOf (a : (⟨S16384x1024, .f32⟩ : BufTy).Contents (Elt F)) : (⟨S16384x1024, .f32⟩ : BufTy).Contents (Elt F) :=
  select (cmpf .ogt a (broadcastInDim S16384x1024 ![] bcast_S_S16384x1024 (constant S_ .f32 0x00000000#32))) a
    (mulf (broadcastInDim S16384x1024 ![] bcast_S_S16384x1024 (constant S_ .f32 0x3F800000#32))
      (Host.expm1
        (select (cmpf .ogt a (broadcastInDim S16384x1024 ![] bcast_S_S16384x1024 (constant S_ .f32 0x00000000#32)))
          (broadcastInDim S16384x1024 ![] bcast_S_S16384x1024 (id (constant S_ .f32 0x00000000#32))) a)))

/-- %25, the first result: `elu` of the aggregate. -/
def resOut : (⟨S16384x1024, .f32⟩ : BufTy).Contents (Elt F) :=
  eluOf (agg x e H We Wn)

end Terms

/-! ## What each buffer holds after the line -/

-- the reductions are folds over the operand's elements and the contractions the instance's: the equations below never
-- look inside them, and kept folded the comparison of the two sides does not either
attribute [local irreducible] Host.reduce Host.reduceAdd in
set_option maxRecDepth 8192 in
/-- After the line the buffer of %23 holds `resB` of the arguments' contents: each operation's result at its own
    buffer is its function's value and at any other buffer what was there; the typed references' casts are the
    identity at these literal references. -/
theorem after_v23 (V : Valuation τ sig (Elt F)) :
    after ops V (Proc.devRef .tc main_v23) = resB (V (Proc.devRef .tc main_arg0)) (V (Proc.devRef .tc main_arg1)) (V (Proc.devRef .tc main_arg2)) (V (Proc.devRef .tc main_arg3)) (V (Proc.devRef .tc main_arg4)) := by
  after_results_simp
  rfl

attribute [local irreducible] Host.reduce Host.reduceAdd in
set_option maxRecDepth 8192 in
/-- After the line the buffer of %25 holds `resOut` of the arguments' contents. -/
theorem after_v25 (V : Valuation τ sig (Elt F)) :
    after ops V (Proc.devRef .tc main_v25) = resOut (V (Proc.devRef .tc main_arg0)) (V (Proc.devRef .tc main_arg1)) (V (Proc.devRef .tc main_arg2)) (V (Proc.devRef .tc main_arg3)) (V (Proc.devRef .tc main_arg4)) := by
  after_results_simp
  rfl

set_option maxRecDepth 8192 in
/-- No operation of the line writes an argument's buffer. -/
theorem after_arg0 (V : Valuation τ sig (Elt F)) : after ops V (Proc.devRef .tc main_arg0) = V (Proc.devRef .tc main_arg0) := by
  after_results_simp
set_option maxRecDepth 8192 in
theorem after_arg1 (V : Valuation τ sig (Elt F)) : after ops V (Proc.devRef .tc main_arg1) = V (Proc.devRef .tc main_arg1) := by
  after_results_simp
set_option maxRecDepth 8192 in
theorem after_arg2 (V : Valuation τ sig (Elt F)) : after ops V (Proc.devRef .tc main_arg2) = V (Proc.devRef .tc main_arg2) := by
  after_results_simp
set_option maxRecDepth 8192 in
theorem after_arg3 (V : Valuation τ sig (Elt F)) : after ops V (Proc.devRef .tc main_arg3) = V (Proc.devRef .tc main_arg3) := by
  after_results_simp
set_option maxRecDepth 8192 in
theorem after_arg4 (V : Valuation τ sig (Elt F)) : after ops V (Proc.devRef .tc main_arg4) = V (Proc.devRef .tc main_arg4) := by
  after_results_simp

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = resOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v23) = resB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (after_v25 _), (h c main_v23).trans (after_v23 _),
      (h c main_arg0).trans (after_arg0 _), (h c main_arg1).trans (after_arg1 _), (h c main_arg2).trans (after_arg2 _),
      (h c main_arg3).trans (after_arg3 _), (h c main_arg4).trans (after_arg4 _)⟩)
    (run_seq scopedRefs_eq scopedSems_eq defs main (fun _ => ops) main_eq (fun _ => ops_sub) m ρ)

end Cert.ReferenceIdeal.RefRun

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.RefRead.lean ====
import proofs.«146018_j40613210751278_2_alg».proof.Proof.Spec
import proofs.«146018_j40613210751278_2_alg».proof.Proof.RefRun
import proofs.«146018_j40613210751278_2_alg».proof.Proof.LibRowColDot
import proofs.«146018_j40613210751278_2_alg».proof.Proof.LibHostRowMax
import proofs.«146018_j40613210751278_2_alg».proof.Proof.LibHostRowReads
import proofs.«146018_j40613210751278_2_alg».proof.Proof.LibHostRowBroadcast
import Idealize.ShloMosaic.Lib.ValueIdx
import Idealize.ShloMosaic.Lib.ValueLayout
import Idealize.ShloMosaic.PureOps.Ideal.Laws

/-!
# The reference's two results, index by index, on the extended reals

Each value of the reference program, read at an index given by its coordinates, is the specification's function of
row `p` of the nodes and of the incidence table: a matrix product is the sum over the contracted coordinate, a
broadcast reads its operand at the kept coordinates, a row reduction is a fold or a sum over the row's entries, and
the elementwise operations are the extended reals' own. The stages follow the program: the projected entities, the
scores, the masked scores, the row maximum, the weights, the attention (the second result), its product with the
projected entities, and the exponential linear unit of that (the first result).
-/

noncomputable section

open scoped BigOperators

namespace Cert.ReferenceIdeal.RefRead

open Cert.ReferenceIdeal Cert.ReferenceIdeal.Gen Idealize.ShloMosaic Idealize.ShloMosaic.ValueIdx Cert.NodeAttention

-- the reductions stay folded: every equation below reads them through their row lemmas
attribute [local irreducible] Host.reduce Host.reduceAdd

variable (x : Mat 16384 1024) (e : Mat 4096 1024) (H : (⟨2, ![16384, 4096]⟩ : Shape).Idx → BitVec 32)
  (We Wn : Mat 1024 1024)

/-- A scalar splat read anywhere is the word's extended real. -/
theorem splat_apply {t : Shape} (w : BitVec 32) (h : S_.BroadcastsInDim t (![] : Fin 0 → Fin t.rank)) (i : t.Idx) :
    broadcastInDim t ![] h (constant (F := Ideal) S_ .f32 w) i = Ideal.ofBits .f32 w :=
  Cert.HostRowBroadcast.broadcastInDim_scalar_apply _ h i

/-- %1 at `(j, d)`: the projected entities are the specification's edge features. -/
theorem he_at (j : Fin 4096) (d : Fin 1024) : RefRun.he (F := Ideal) e We (ix2 j d) = edgeFeat e We (ix2 j d) := by
  refine (Cert.RowColDot.hostDot_rowcol dot_S4096x1024_S1024x1024_S4096x1024_1_0_0_1_n_n rfl rfl rfl rfl
    (fun _ _ => rfl) (fun _ _ => rfl) none _ _ (ix2 j d)).trans ?_
  refine Finset.sum_congr rfl fun k _ => ?_
  exact congrArg (e (ix2 j k) * ·) (transpose_ix2_apply We _ k d)

/-- %1 as an array. -/
theorem he_eq : RefRun.he (F := Ideal) e We = edgeFeat e We := by
  funext i
  rw [eq_ix2 i]
  exact he_at e We _ _

/-- %3 at `(p, d)`: the node's features. -/
theorem hn_at (p : Fin 16384) (d : Fin 1024) :
    Host.dotGeneral (F := Ideal) (φ₁ := .f32) (φ₂ := .f32) dot_S16384x1024_S1024x1024_S16384x1024_1_0_0_1_n_n none x
        (transpose S1024x1024 [1, 0] Wn transposes_S1024x1024_S1024x1024_1_0) (ix2 p d)
      = nodeFeat (fun k => x (ix2 p k)) Wn d := by
  refine (Cert.RowColDot.hostDot_rowcol dot_S16384x1024_S1024x1024_S16384x1024_1_0_0_1_n_n rfl rfl rfl rfl
    (fun _ _ => rfl) (fun _ _ => rfl) none _ _ (ix2 p d)).trans ?_
  refine Finset.sum_congr rfl fun k _ => ?_
  exact congrArg (x (ix2 p k) * ·) (transpose_ix2_apply Wn _ k d)

/-- A choice between equal operands under equal conditions. -/
theorem select_congr {α : Type} {c c' : BitVec 1} {a a' b b' : α} (hc : c = c') (ha : a = a') (hb : b = b') :
    Scalar.select c a b = Scalar.select c' a' b' := by
  subst hc ha hb; rfl

/-- A vector of one entry per row, placed as a column and repeated along the rows, reads at `(p, j)` its entry `p`. -/
theorem bcastRow_apply (v : (⟨1, ![16384]⟩ : Shape).Idx → EReal) (p : Fin 16384) (j : Fin 4096) :
    broadcastInDim S16384x4096 ![0, 1] bcast_S16384x1_S16384x4096_0_1
        (broadcastInDim S16384x1 ![0] bcast_S16384_S16384x1_0 v) (ix2 p j) = v (ix1 p) :=
  (Cert.HostRowMax.broadcastInDim_cols_apply _ _ p j).trans (Cert.HostRowReads.broadcastInDim_col_apply _ _ p 0)

/-- %7 at `(p, j)`: the scaled score of node `p` against edge `j`. -/
theorem scores_at (p : Fin 16384) (j : Fin 4096) :
    RefRun.scores (F := Ideal) x e We Wn (ix2 p j) = score (fun k => x (ix2 p k)) Wn (edgeFeat e We) j := by
  unfold RefRun.scores score
  refine (mulf_apply _ _ _).trans (congrArg₂ (· * ·) ?_ (splat_apply _ _ _))
  refine (Cert.RowColDot.hostDot_rowcol dot_S16384x1024_S1024x4096_S16384x4096_1_0_0_1_n_n rfl rfl rfl rfl
    (fun _ _ => rfl) (fun _ _ => rfl) none _ _ (ix2 p j)).trans ?_
  refine Finset.sum_congr rfl fun d _ => ?_
  exact congrArg₂ (· * ·) (hn_at x Wn p d)
    ((transpose_ix2_apply (RefRun.he (F := Ideal) e We) _ d j).trans (he_at e We j d))

/-- %9 at `(p, j)`: whether node `p` lies on edge `j`. -/
theorem mask_at (p : Fin 16384) (j : Fin 4096) :
    RefRun.mask (F := Ideal) H (ix2 p j) = linked (fun j => H (ix2 p j)) j :=
  congrArg (IntOp.cmpi .sgt (H (ix2 p j)))
    (Cert.HostRowBroadcast.broadcastInDim_scalar_apply (constantI S_ 32 0#32) bcast_S_S16384x4096 (ix2 p j))

/-- %10 at `(p, j)`: the score where linked, the fill elsewhere. -/
theorem masked_at (p : Fin 16384) (j : Fin 4096) :
    RefRun.masked (F := Ideal) x e H We Wn (ix2 p j) = NodeAttention.masked (fun k => x (ix2 p k)) (fun j => H (ix2 p j)) Wn (edgeFeat e We) j := by
  unfold RefRun.masked NodeAttention.masked
  refine (select_apply _ _ _ _).trans (select_congr (mask_at H p j) (scores_at x e We Wn p j) ?_)
  exact Cert.HostRowBroadcast.broadcastInDim_scalar_apply _ bcast_S_S16384x4096 (ix2 p j)

/-- %13 at `p`: the row's maximum. The reduction over the columns is the fold of `max` from `-∞` over the row's
    entries, and the maximum of `-∞` with that fold is the fold. -/
theorem rowMax_at (p : Fin 16384) :
    RefRun.rowMax (F := Ideal) x e H We Wn (ix1 p) = NodeAttention.rowMax (fun k => x (ix2 p k)) (fun j => H (ix2 p j)) Wn (edgeFeat e We) := by
  unfold RefRun.rowMax NodeAttention.rowMax
  refine (maximumf_apply _ _ _).trans ?_
  refine (congrArg₂ max (splat_apply _ _ _)
    (Cert.HostRowMax.hostReduceMax_row _ _ reducesTo_S16384x4096_S16384_d1 (by decide) h_S_ p)).trans ?_
  have hf : (fun k => RefRun.masked (F := Ideal) x e H We Wn (ix2 p k)) = NodeAttention.masked (fun k => x (ix2 p k)) (fun j => H (ix2 p j)) Wn (edgeFeat e We) :=
    funext fun k => masked_at x e H We Wn p k
  rw [hf]
  exact max_fold_max_self Finset.univ negInfC _

/-- %17 at `(p, j)`: the unnormalised weight. -/
theorem expd_at (p : Fin 16384) (j : Fin 4096) :
    RefRun.expd (F := Ideal) x e H We Wn (ix2 p j) = weight (fun k => x (ix2 p k)) (fun j => H (ix2 p j)) Wn (edgeFeat e We) j := by
  unfold RefRun.expd weight
  refine congrArg Ideal.exp ?_
  refine (subf_apply _ _ _).trans (congrArg₂ (· - ·) (masked_at x e H We Wn p j) ?_)
  exact (bcastRow_apply _ p j).trans (rowMax_at x e H We Wn p)

/-- %23 at `(p, j)`: the attention of node `p` to edge `j`. The row sum starts from the word of zero. -/
theorem resB_at (p : Fin 16384) (j : Fin 4096) :
    RefRun.resB (F := Ideal) x e H We Wn (ix2 p j) = prob (fun k => x (ix2 p k)) (fun j => H (ix2 p j)) Wn (edgeFeat e We) j := by
  unfold RefRun.resB prob
  refine (mulf_apply _ _ _).trans (congrArg₂ (· * ·) ?_ ?_)
  · refine congrArg₂ Ideal.div (expd_at x e H We Wn p j) ?_
    refine (bcastRow_apply _ p j).trans ?_
    refine (Cert.HostRowReads.hostReduceAdd_row _ _ reducesTo_S16384x4096_S16384_d1 (by decide) h_S_ p).trans ?_
    refine (congrArg₂ (· + ·) Ideal.ofBits_zero_f32 (Finset.sum_congr rfl fun k _ => expd_at x e H We Wn p k)).trans ?_
    exact zero_add _
  · exact congrArg (fun b : BitVec 1 => ((b.toNat : ℝ) : EReal)) (mask_at H p j)

/-- %24 at `(p, d)`: the attention-weighted sum of the edge features. -/
theorem agg_at (p : Fin 16384) (d : Fin 1024) :
    RefRun.agg (F := Ideal) x e H We Wn (ix2 p d) = NodeAttention.agg (fun k => x (ix2 p k)) (fun j => H (ix2 p j)) Wn (edgeFeat e We) d := by
  refine (Cert.RowColDot.hostDot_rowcol dot_S16384x4096_S4096x1024_S16384x1024_1_0_0_1_n_n rfl rfl rfl rfl
    (fun _ _ => rfl) (fun _ _ => rfl) none _ _ (ix2 p d)).trans ?_
  refine Finset.sum_congr rfl fun j _ => ?_
  exact congrArg₂ (· * ·) (resB_at x e H We Wn p j) (he_at e We j d)

/-- The callee's exponential linear unit, elementwise: the specification's. -/
theorem eluOf_at (a : Mat 16384 1024) (i : (⟨2, ![16384, 1024]⟩ : Shape).Idx) :
    RefRun.eluOf (F := Ideal) a i = elu (a i) := by
  refine Eq.trans ?_ (elu_choice (a i))
  unfold RefRun.eluOf
  refine (select_apply _ _ _ _).trans (select_congr ?_ rfl ?_)
  · exact congrArg (Ideal.cmp .ogt (a i)) (splat_apply _ _ i)
  · refine (mulf_apply _ _ _).trans (congrArg₂ (· * ·) (splat_apply _ _ i) ?_)
    refine congrArg (fun t => Ideal.exp t - 1) ?_
    refine (select_apply _ _ _ _).trans (select_congr ?_ ?_ rfl)
    · exact congrArg (Ideal.cmp .ogt (a i)) (splat_apply _ _ i)
    · exact Cert.HostRowBroadcast.broadcastInDim_scalar_apply _ bcast_S_S16384x1024 i

/-- The second result is the specification's attention matrix. -/
theorem resB_eq : RefRun.resB (F := Ideal) x e H We Wn = attnB x e H We Wn := by
  funext i
  rw [eq_ix2 i]
  exact resB_at x e H We Wn _ _

/-- The first result is the specification's output. -/
theorem resOut_eq : RefRun.resOut (F := Ideal) x e H We Wn = attnOut x e H We Wn := by
  funext i
  rw [eq_ix2 i]
  exact (eluOf_at _ _).trans (congrArg elu (agg_at x e H We Wn _ _))

end Cert.ReferenceIdeal.RefRead

end
-- ==== Proof.lean ====
/-
  Node attention over a hypergraph: a tiled two-kernel program against its plain reference, equal on the extended reals.

  Both programs compute, from node inputs `x`, edge inputs `e`, an integer incidence matrix `H` and two weight
  matrices, the attention matrix `B` and the output `out` of Proof/Spec.lean: edge and node features by matrix
  products, scaled scores, the fill −10⁹ where a node is not on an edge, a softmax along each row, the mask once
  more as a 0-or-1 factor, the attention-weighted edge features and the exponential linear unit.

  The kernel side (Proof/KernelBody.lean, EdgeArray.lean, AttnArrays.lean, KernelRun.lean): the first kernel writes
  the edge features in four tiles of 1024 rows, the second the attention matrix and the output in 64 tiles of 256
  rows; a row of a tile depends on that row of the loaded tiles only, so each tile is the tile of one whole-array
  function and the tiles cover the arrays. Rounding to a narrower float format is the identity on the extended reals.
  The reference side (Proof/RefRun.lean, RefRead.lean): its host operations composed, read at an index. The two
  spellings differ in three places, none of which needs the inputs to be finite: the reference takes the maximum of
  its row maximum with −∞ once more; it writes the unit's negative branch as `exp(·) − 1` of the input clipped by a
  choice, times one, where the kernel writes `exp(min(·, 0)) − 1`; and it reads the one-bit mask as an unsigned
  number where the kernel widens it and reads it signed. The matrix products are the same sums on both sides.

  The two kernels' frames are the generated ones; the reference's frame is its run with the results dropped; the
  idealization rewrote nothing, so the fourth claim is `True`.
-/
import proofs.«146018_j40613210751278_2_alg».proof.Defs
import proofs.«146018_j40613210751278_2_alg».proof.Proof.Gen.Kernel
import proofs.«146018_j40613210751278_2_alg».proof.Proof.Gen.Kernel.Frame
import proofs.«146018_j40613210751278_2_alg».proof.Proof.Gen.KernelIdeal
import proofs.«146018_j40613210751278_2_alg».proof.Proof.Gen.KernelIdeal.Frame
import proofs.«146018_j40613210751278_2_alg».proof.Proof.Gen.ReferenceIdeal
import proofs.«146018_j40613210751278_2_alg».proof.Proof.Gen.Pre_finite_inputs
import proofs.«146018_j40613210751278_2_alg».proof.Proof.KernelRun
import proofs.«146018_j40613210751278_2_alg».proof.Proof.RefRun
import proofs.«146018_j40613210751278_2_alg».proof.Proof.RefRead
import Idealize.ShloMosaic.Adequacy
import Idealize.ShloMosaic.Init

noncomputable section

namespace Cert.Proof

open Idealize.ShloMosaic Idealize.SL.Sem Cert.NodeAttention

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what it says of the two results dropped. -/
theorem frame_referenceIdeal : Cert.frame_ReferenceIdeal := fun m ρ _ =>
  (θ_run Cert.ReferenceIdeal.defs _ _).mono (fun _ h c => (h c).2.2)
    (Cert.ReferenceIdeal.RefRun.run (F := Ideal) m ρ)

/-- From memories agreeing on the arguments both programs end with the output at `attnOut` and the attention matrix
    at `attnB` of the kernel's argument arrays. -/
theorem algebraic : Cert.algebraic_KernelIdeal_ReferenceIdeal := by
  intro m ρ m' ρ' _ hagree
  refine ⟨_, _, Cert.KernelIdeal.Ends.run m ρ, ?_⟩
  refine (θ_run Cert.ReferenceIdeal.defs _ _).mono (fun r h c => ?_)
    (Cert.ReferenceIdeal.RefRun.run (F := Ideal) m' ρ')
  obtain ⟨h25, h23, ha0, ha1, ha2, ha3, ha4⟩ := h c
  obtain ⟨e0, e1, e2, e3, e4⟩ := hagree c
  refine ⟨?_, ?_, ha0, ha1, ha2, ha3, ha4⟩
  · rw [h25, Cert.ReferenceIdeal.RefRead.resOut_eq, e0, e1, e2, e3, e4]
  · rw [h23, Cert.ReferenceIdeal.RefRead.resB_eq, e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
